-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x40960x3 : Shape := ⟨3, ![4, 40960, 3]⟩
abbrev S4x40960x8 : Shape := ⟨3, ![4, 40960, 8]⟩
abbrev S4x40960x16 : Shape := ⟨3, ![4, 40960, 16]⟩
abbrev S16x10 : Shape := ⟨2, ![16, 10]⟩
abbrev S16 : Shape := ⟨1, ![16]⟩
abbrev S_ : Shape := ⟨0, ![]⟩

class Facts : Prop where
  bcast_S_S4x40960x3 : S_.BroadcastsInDim S4x40960x3 (![] : Fin 0 → Fin S4x40960x3.rank)
  reducesTo_S4x40960x3_S_d0_1_2 : S4x40960x3.ReducesTo [0, 1, 2] S_
  h_S_ : 0 < S_.numel
  bcast_S_S4x40960x8 : S_.BroadcastsInDim S4x40960x8 (![] : Fin 0 → Fin S4x40960x8.rank)
  reducesTo_S4x40960x8_S_d0_1_2 : S4x40960x8.ReducesTo [0, 1, 2] S_
  bcast_S_S16x10 : S_.BroadcastsInDim S16x10 (![] : Fin 0 → Fin S16x10.rank)
  reducesTo_S16x10_S_d0_1 : S16x10.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_arg6 : FVec F S16 .f32) (main_arg7 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S4x40960x3 .f32) (main_arg1 : FVec F S4x40960x8 .f32) (main_arg2 : IVec S4x40960x16 32) (main_arg3 : FVec F S16x10 .f32) (main_arg4 : FVec F S16 .f32) (main_arg5 : FVec F S16 .f32) (main_arg6 : FVec F S16 .f32) (main_arg7 : FVec F S16 .f32) : IVec S_ 1 :=
  let main_v0 : FVec F S4x40960x3 .f32 := Host.absf main_arg0
  let main_cst : FVec F S_ .f32 := constant S_ .f32 0x7F800000#32
  let main_v1 : FVec F S4x40960x3 .f32 := broadcastInDim S4x40960x3 ![] bcast_S_S4x40960x3 main_cst
  let main_v2 : IVec S4x40960x3 1 := cmpf .olt main_v0 main_v1
  let main_c : IVec S_ 1 := constantI S_ 1 1#1
  let main_v3 : IVec S_ 1 := (fun x v => Host.reduce IntOp.andi x v reducesTo_S4x40960x3_S_d0_1_2 h_S_) main_v2 main_c
  let main_v4 : FVec F S4x40960x8 .f32 := Host.absf main_arg1
  let main_cst_0 : FVec F S_ .f32 := constant S_ .f32 0x7F800000#32
  let main_v5 : FVec F S4x40960x8 .f32 := broadcastInDim S4x40960x8 ![] bcast_S_S4x40960x8 main_cst_0
  let main_v6 : IVec S4x40960x8 1 := cmpf .olt main_v4 main_v5
  let main_c_1 : IVec S_ 1 := constantI S_ 1 1#1
  let main_v7 : IVec S_ 1 := (fun x v => Host.reduce IntOp.andi x v reducesTo_S4x40960x8_S_d0_1_2 h_S_) main_v6 main_c_1
  let main_v8 : IVec S_ 1 := andi main_v3 main_v7
  let main_v9 : FVec F S16x10 .f32 := Host.absf main_arg3
  let main_cst_2 : FVec F S_ .f32 := constant S_ .f32 0x7F800000#32
  let main_v10 : FVec F S16x10 .f32 := broadcastInDim S16x10 ![] bcast_S_S16x10 main_cst_2
  let main_v11 : IVec S16x10 1 := cmpf .olt main_v9 main_v10
  let main_c_3 : IVec S_ 1 := constantI S_ 1 1#1
  let main_v12 : IVec S_ 1 := (fun x v => Host.reduce IntOp.andi x v reducesTo_S16x10_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_v13 main_v16
-- ==== Kernel.lean ====
abbrev S4x40960x3 : Shape := ⟨3, ![4, 40960, 3]⟩
abbrev S4x40960x8 : Shape := ⟨3, ![4, 40960, 8]⟩
abbrev S4x40960x16 : Shape := ⟨3, ![4, 40960, 16]⟩
abbrev S16x10 : Shape := ⟨2, ![16, 10]⟩
abbrev S16 : Shape := ⟨1, ![16]⟩
abbrev S4x40960x1x3 : Shape := ⟨4, ![4, 40960, 1, 3]⟩
abbrev S4x40960x16x1 : Shape := ⟨4, ![4, 40960, 16, 1]⟩
abbrev S_ : Shape := ⟨0, ![]⟩
abbrev S1 : Shape := ⟨1, ![1]⟩
abbrev S1x1x1x1 : Shape := ⟨4, ![1, 1, 1, 1]⟩
abbrev S4x40960x16x3 : Shape := ⟨4, ![4, 40960, 16, 3]⟩
abbrev S1x16 : Shape := ⟨2, ![1, 16]⟩
abbrev S4x16x40960x16 : Shape := ⟨4, ![4, 16, 40960, 16]⟩
abbrev S1x64x3 : Shape := ⟨3, ![1, 64, 3]⟩
abbrev S1x64x16x3 : Shape := ⟨4, ![1, 64, 16, 3]⟩
abbrev S1x16x64x16 : Shape := ⟨4, ![1, 16, 64, 16]⟩
abbrev S64x3 : Shape := ⟨2, ![64, 3]⟩
abbrev S64x16x3 : Shape := ⟨3, ![64, 16, 3]⟩
abbrev S64x1 : Shape := ⟨2, ![64, 1]⟩
abbrev S64 : Shape := ⟨1, ![64]⟩
abbrev S64x16x1 : Shape := ⟨3, ![64, 16, 1]⟩
abbrev S64x16 : Shape := ⟨2, ![64, 16]⟩
abbrev S16x1 : Shape := ⟨2, ![16, 1]⟩
abbrev S16x1x1 : Shape := ⟨3, ![16, 1, 1]⟩
abbrev S1x64x16 : Shape := ⟨3, ![1, 64, 16]⟩
abbrev S16x64x16 : Shape := ⟨3, ![16, 64, 16]⟩

abbrev nBuf : Space → Nat
  | .hbm => 44
  | .vmem => 9
  | .smem => 0
  | _ => 0

abbrev bufTy : (tb : Table) → Fin (tcTables nBuf tb) → BufTy
  | .hbm, ⟨0, _⟩ => ⟨S4x40960x3, .f32⟩
  | .hbm, ⟨1, _⟩ => ⟨S4x40960x8, .f32⟩
  | .hbm, ⟨2, _⟩ => ⟨S4x40960x16, .i32⟩
  | .hbm, ⟨3, _⟩ => ⟨S16x10, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S4x40960x1x3, .f32⟩
  | .hbm, ⟨9, _⟩ => ⟨S4x40960x16x1, .i32⟩
  | .hbm, ⟨10, _⟩ => ⟨S_, .i32⟩
  | .hbm, ⟨11, _⟩ => ⟨S4x40960x16x1, .i32⟩
  | .hbm, ⟨12, _⟩ => ⟨S4x40960x16x1, .i1⟩
  | .hbm, ⟨13, _⟩ => ⟨S_, .i32⟩
  | .hbm, ⟨14, _⟩ => ⟨S4x40960x16x1, .i32⟩
  | .hbm, ⟨15, _⟩ => ⟨S4x40960x16x1, .i32⟩
  | .hbm, ⟨16, _⟩ => ⟨S4x40960x16x1, .i32⟩
  | .hbm, ⟨17, _⟩ => ⟨S4x40960x3, .f32⟩
  | .hbm, ⟨18, _⟩ => ⟨S1, .i32⟩
  | .hbm, ⟨19, _⟩ => ⟨S_, .i32⟩
  | .hbm, ⟨20, _⟩ => ⟨S4x40960x16x1, .i32⟩
  | .hbm, ⟨21, _⟩ => ⟨S4x40960x16x1, .i1⟩
  | .hbm, ⟨22, _⟩ => ⟨S1x1x1x1, .i32⟩
  | .hbm, ⟨23, _⟩ => ⟨S4x40960x16x1, .i32⟩
  | .hbm, ⟨24, _⟩ => ⟨S4x40960x16x1, .i1⟩
  | .hbm, ⟨25, _⟩ => ⟨S4x40960x16x1, .i1⟩
  | .hbm, ⟨26, _⟩ => ⟨S_, .i1⟩
  | .hbm, ⟨27, _⟩ => ⟨S4x40960x16, .i1⟩
  | .hbm, ⟨28, _⟩ => ⟨S4x40960x16x3, .f32⟩
  | .hbm, ⟨29, _⟩ => ⟨S4x40960x16x3, .i1⟩
  | .hbm, ⟨30, _⟩ => ⟨S_, .f32⟩
  | .hbm, ⟨31, _⟩ => ⟨S4x40960x16x3, .f32⟩
  | .hbm, ⟨32, _⟩ => ⟨S4x40960x16x3, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S16, .f32⟩
  | .hbm, ⟨37, _⟩ => ⟨S16, .f32⟩
  | .hbm, ⟨38, _⟩ => ⟨S16, .f32⟩
  | .hbm, ⟨39, _⟩ => ⟨S16, .f32⟩
  | .hbm, ⟨40, _⟩ => ⟨S16, .f32⟩
  | .hbm, ⟨41, _⟩ => ⟨S1x16, .f32⟩
  | .hbm, ⟨42, _⟩ => ⟨S1x16, .f32⟩
  | .hbm, ⟨43, _⟩ => ⟨S4x16x40960x16, .f32⟩
  | .local _ .vmem, ⟨0, _⟩ => ⟨S1x64x3, .f32⟩
  | .local _ .vmem, ⟨1, _⟩ => ⟨S1x64x3, .f32⟩
  | .local _ .vmem, ⟨2, _⟩ => ⟨S1x64x16x3, .f32⟩
  | .local _ .vmem, ⟨3, _⟩ => ⟨S1x64x16x3, .f32⟩
  | .local _ .vmem, ⟨4, _⟩ => ⟨S16x10, .f32⟩
  | .local _ .vmem, ⟨5, _⟩ => ⟨S1x16, .f32⟩
  | .local _ .vmem, ⟨6, _⟩ => ⟨S1x16, .f32⟩
  | .local _ .vmem, ⟨7, _⟩ => ⟨S1x16x64x16, .f32⟩
  | .local _ .vmem, ⟨8, _⟩ => ⟨S1x16x64x16, .f32⟩
  | _, _ => ⟨S4x40960x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v2 : Ref sig .tc := ⟨.hbm, 32, rfl⟩
abbrev main_cst : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 640], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x64x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x16x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x64x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S4x40960x3_S4x40960x1x3_0_1_3 : S4x40960x3.BroadcastsInDim S4x40960x1x3 (![0, 1, 3] : Fin 3 → Fin S4x40960x1x3.rank)
  bcast_S4x40960x16_S4x40960x16x1_0_1_2 : S4x40960x16.BroadcastsInDim S4x40960x16x1 (![0, 1, 2] : Fin 3 → Fin S4x40960x16x1.rank)
  bcast_S_S4x40960x16x1 : S_.BroadcastsInDim S4x40960x16x1 (![] : Fin 0 → Fin S4x40960x16x1.rank)
  shapeCasts_S4x40960x1x3_S4x40960x3 : S4x40960x1x3.ShapeCasts S4x40960x3
  bcast_S1_S1x1x1x1_3 : S1.BroadcastsInDim S1x1x1x1 (![3] : Fin 1 → Fin S1x1x1x1.rank)
  bcast_S1x1x1x1_S4x40960x16x1_0_1_2_3 : S1x1x1x1.BroadcastsInDim S4x40960x16x1 (![0, 1, 2, 3] : Fin 4 → Fin S4x40960x16x1.rank)
  reducesTo_S4x40960x16x1_S4x40960x16_d3 : S4x40960x16x1.ReducesTo [3] S4x40960x16
  h_S_ : 0 < S_.numel
  bcast_S4x40960x16_S4x40960x16x3_0_1_2 : S4x40960x16.BroadcastsInDim S4x40960x16x3 (![0, 1, 2] : Fin 3 → Fin S4x40960x16x3.rank)
  bcast_S_S4x40960x16x3 : S_.BroadcastsInDim S4x40960x16x3 (![] : Fin 0 → Fin S4x40960x16x3.rank)
  bcast_S_S16 : S_.BroadcastsInDim S16 (![] : Fin 0 → Fin S16.rank)
  shapeCasts_S16_S1x16 : S16.ShapeCasts S1x16
  inb_S1x64x3_S1x64x3_0_0_0 : ∀ a, (![0, 0, 0] : Fin 3 → Nat) a + S1x64x3.size a ≤ S1x64x3.size a
  h_S1x64x3 : 0 < S1x64x3.numel
  shapeCasts_S1x64x3_S64x3 : S1x64x3.ShapeCasts S64x3
  inb_S1x64x16x3_S1x64x16x3_0_0_0_0 : ∀ a, (![0, 0, 0, 0] : Fin 4 → Nat) a + S1x64x16x3.size a ≤ S1x64x16x3.size a
  h_S1x64x16x3 : 0 < S1x64x16x3.numel
  shapeCasts_S1x64x16x3_S64x16x3 : S1x64x16x3.ShapeCasts S64x16x3
  inb_S16x10_S16x10_0_0 : ∀ a, (![0, 0] : Fin 2 → Nat) a + S16x10.size a ≤ S16x10.size a
  h_S16x10 : 0 < S16x10.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  slices_S64x3_o0_0_S64x1 : S64x3.Slices ![0, 0] S64x1
  shapeCasts_S64x1_S64 : S64x1.ShapeCasts S64
  slices_S64x3_o0_1_S64x1 : S64x3.Slices ![0, 1] S64x1
  slices_S64x3_o0_2_S64x1 : S64x3.Slices ![0, 2] S64x1
  slices_S64x16x3_o0_0_0_S64x16x1 : S64x16x3.Slices ![0, 0, 0] S64x16x1
  shapeCasts_S64x16x1_S64x16 : S64x16x1.ShapeCasts S64x16
  slices_S64x16x3_o0_0_1_S64x16x1 : S64x16x3.Slices ![0, 0, 1] S64x16x1
  slices_S64x16x3_o0_0_2_S64x16x1 : S64x16x3.Slices ![0, 0, 2] S64x16x1
  shapeCasts_S64_S64x1 : S64.ShapeCasts S64x1
  shapeCasts_S64x1_S64x1 : S64x1.ShapeCasts S64x1
  broadcasts_S64x1_S64x16 : S64x1.Broadcasts S64x16
  slices_S16x10_o0_0_S16x1 : S16x10.Slices ![0, 0] S16x1
  shapeCasts_S16x1_S16 : S16x1.ShapeCasts S16
  shapeCasts_S16_S16x1x1 : S16.ShapeCasts S16x1x1
  shapeCasts_S64x16_S1x64x16 : S64x16.ShapeCasts S1x64x16
  broadcasts_S16x1x1_S16x64x16 : S16x1x1.Broadcasts S16x64x16
  broadcasts_S1x64x16_S16x64x16 : S1x64x16.Broadcasts S16x64x16
  slices_S16x10_o0_1_S16x1 : S16x10.Slices ![0, 1] S16x1
  slices_S16x10_o0_2_S16x1 : S16x10.Slices ![0, 2] S16x1
  slices_S16x10_o0_3_S16x1 : S16x10.Slices ![0, 3] S16x1
  slices_S16x10_o0_4_S16x1 : S16x10.Slices ![0, 4] S16x1
  slices_S16x10_o0_5_S16x1 : S16x10.Slices ![0, 5] S16x1
  slices_S16x10_o0_6_S16x1 : S16x10.Slices ![0, 6] S16x1
  slices_S16x10_o0_7_S16x1 : S16x10.Slices ![0, 7] S16x1
  slices_S16x10_o0_8_S16x1 : S16x10.Slices ![0, 8] S16x1
  slices_S16x10_o0_9_S16x1 : S16x10.Slices ![0, 9] S16x1
  shapeCasts_S1x16_S16 : S1x16.ShapeCasts S16
  inb_S1x16x64x16_S1x16x64x16_0_0_0_0 : ∀ a, (![0, 0, 0, 0] : Fin 4 → Nat) a + S1x16x64x16.size a ≤ S1x16x64x16.size a
  h_S1x16x64x16 : 0 < S1x16x64x16.numel
  shapeCasts_S1x16x64x16_S16x64x16 : S1x16x64x16.ShapeCasts S16x64x16
  shapeCasts_S16x64x16_S1x16x64x16 : S16x64x16.ShapeCasts S1x16x64x16
  gather_S4x40960x3_S4x40960x16x1_S4x40960x16x3_3_1_0_0_1_3_113_wf : GatherDims.WF S4x40960x3 S4x40960x16x1 S4x40960x16x3 [3] [1] [0] [1] [0] 3 ![1, 1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x3.size a ≤ S4x40960x3.size a
  hwx0_0 : ∀ i : grid0.Coords, EltTy.bits .f32 = 32 ∨ (Rect.block (s := S4x40960x3) S1x64x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x16x3.size a ≤ S4x40960x16x3.size a
  hwx0_1 : ∀ i : grid0.Coords, EltTy.bits .f32 = 32 ∨ (Rect.block (s := S4x40960x16x3) S1x64x16x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x10.size a ≤ S16x10.size a
  hwx0_2 : ∀ i : grid0.Coords, EltTy.bits .f32 = 32 ∨ (Rect.block (s := S16x10) S16x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x64x16.size a ≤ S4x16x40960x16.size a
  hwx0_5 : ∀ i : grid0.Coords, EltTy.bits .f32 = 32 ∨ (Rect.block (s := S4x16x40960x16) S1x16x64x16.size (cc0_transform_5 i) (hinb0_5 i)).WholeWords (EltTy.packing .f32)

variable [Facts₀]

def gather_S4x40960x3_S4x40960x16x1_S4x40960x16x3_3_1_0_0_1_3_113 : GatherDims S4x40960x3 S4x40960x16x1 S4x40960x16x3 where
  offsetDims := [3]
  collapsedSliceDims := [1]
  operandBatchingDims := [0]
  startIndicesBatchingDims := [0]
  startIndexMap := [1]
  indexVectorDim := 3
  sliceSizes := ![1, 1, 3]
  wf := gather_S4x40960x3_S4x40960x16x1_S4x40960x16x3_3_1_0_0_1_3_113_wf

abbrev win0_0 : Pipeline.Window sig grid0 :=
  Pipeline.Window.ofSpec (Memref.whole main_arg0) S1x64x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x64x16x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x16x64x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x40960x3 : Shape := ⟨3, ![4, 40960, 3]⟩
abbrev S4x40960x8 : Shape := ⟨3, ![4, 40960, 8]⟩
abbrev S4x40960x16 : Shape := ⟨3, ![4, 40960, 16]⟩
abbrev S16x10 : Shape := ⟨2, ![16, 10]⟩
abbrev S16 : Shape := ⟨1, ![16]⟩
abbrev S4x40960x1x3 : Shape := ⟨4, ![4, 40960, 1, 3]⟩
abbrev S4x40960x16x1 : Shape := ⟨4, ![4, 40960, 16, 1]⟩
abbrev S_ : Shape := ⟨0, ![]⟩
abbrev S1 : Shape := ⟨1, ![1]⟩
abbrev S1x1x1x1 : Shape := ⟨4, ![1, 1, 1, 1]⟩
abbrev S4x40960x16x3 : Shape := ⟨4, ![4, 40960, 16, 3]⟩
abbrev S4x40960x16x10 : Shape := ⟨4, ![4, 40960, 16, 10]⟩
abbrev S16x4x40960x16 : Shape := ⟨4, ![16, 4, 40960, 16]⟩
abbrev S4x16x40960x16 : Shape := ⟨4, ![4, 16, 40960, 16]⟩
abbrev S1x16x1x1 : Shape := ⟨4, ![1, 16, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S4x40960x3, .f32⟩
  | .hbm, ⟨1, _⟩ => ⟨S4x40960x8, .f32⟩
  | .hbm, ⟨2, _⟩ => ⟨S4x40960x16, .i32⟩
  | .hbm, ⟨3, _⟩ => ⟨S16x10, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S4x40960x1x3, .f32⟩
  | .hbm, ⟨9, _⟩ => ⟨S4x40960x16x1, .i32⟩
  | .hbm, ⟨10, _⟩ => ⟨S_, .i32⟩
  | .hbm, ⟨11, _⟩ => ⟨S4x40960x16x1, .i32⟩
  | .hbm, ⟨12, _⟩ => ⟨S4x40960x16x1, .i1⟩
  | .hbm, ⟨13, _⟩ => ⟨S_, .i32⟩
  | .hbm, ⟨14, _⟩ => ⟨S4x40960x16x1, .i32⟩
  | .hbm, ⟨15, _⟩ => ⟨S4x40960x16x1, .i32⟩
  | .hbm, ⟨16, _⟩ => ⟨S4x40960x16x1, .i32⟩
  | .hbm, ⟨17, _⟩ => ⟨S4x40960x3, .f32⟩
  | .hbm, ⟨18, _⟩ => ⟨S1, .i32⟩
  | .hbm, ⟨19, _⟩ => ⟨S_, .i32⟩
  | .hbm, ⟨20, _⟩ => ⟨S4x40960x16x1, .i32⟩
  | .hbm, ⟨21, _⟩ => ⟨S4x40960x16x1, .i1⟩
  | .hbm, ⟨22, _⟩ => ⟨S1x1x1x1, .i32⟩
  | .hbm, ⟨23, _⟩ => ⟨S4x40960x16x1, .i32⟩
  | .hbm, ⟨24, _⟩ => ⟨S4x40960x16x1, .i1⟩
  | .hbm, ⟨25, _⟩ => ⟨S4x40960x16x1, .i1⟩
  | .hbm, ⟨26, _⟩ => ⟨S_, .i1⟩
  | .hbm, ⟨27, _⟩ => ⟨S4x40960x16, .i1⟩
  | .hbm, ⟨28, _⟩ => ⟨S4x40960x16x3, .f32⟩
  | .hbm, ⟨29, _⟩ => ⟨S4x40960x16x3, .i1⟩
  | .hbm, ⟨30, _⟩ => ⟨S_, .f32⟩
  | .hbm, ⟨31, _⟩ => ⟨S4x40960x16x3, .f32⟩
  | .hbm, ⟨32, _⟩ => ⟨S4x40960x16x3, .f32⟩
  | .hbm, ⟨33, _⟩ => ⟨S4x40960x1x3, .f32⟩
  | .hbm, ⟨34, _⟩ => ⟨S4x40960x16x3, .f32⟩
  | .hbm, ⟨35, _⟩ => ⟨S4x40960x16x3, .f32⟩
  | .hbm, ⟨36, _⟩ => ⟨S4x40960x16x3, .f32⟩
  | .hbm, ⟨37, _⟩ => ⟨S_, .f32⟩
  | .hbm, ⟨38, _⟩ => ⟨S4x40960x16, .f32⟩
  | .hbm, ⟨39, _⟩ => ⟨S4x40960x16x1, .f32⟩
  | .hbm, ⟨40, _⟩ => ⟨S4x40960x16x1, .f32⟩
  | .hbm, ⟨41, _⟩ => ⟨S4x40960x16x10, .f32⟩
  | .hbm, ⟨42, _⟩ => ⟨S16x4x40960x16, .f32⟩
  | .hbm, ⟨43, _⟩ => ⟨S4x16x40960x16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S16, .f32⟩
  | .hbm, ⟨48, _⟩ => ⟨S16, .f32⟩
  | .hbm, ⟨49, _⟩ => ⟨S1x16x1x1, .f32⟩
  | .hbm, ⟨50, _⟩ => ⟨S16, .f32⟩
  | .hbm, ⟨51, _⟩ => ⟨S16, .f32⟩
  | .hbm, ⟨52, _⟩ => ⟨S16, .f32⟩
  | .hbm, ⟨53, _⟩ => ⟨S1x16x1x1, .f32⟩
  | .hbm, ⟨54, _⟩ => ⟨S4x16x40960x16, .f32⟩
  | .hbm, ⟨55, _⟩ => ⟨S4x16x40960x16, .f32⟩
  | .hbm, ⟨56, _⟩ => ⟨S4x16x40960x16, .f32⟩
  | .hbm, ⟨57, _⟩ => ⟨S4x16x40960x16, .f32⟩
  | .hbm, ⟨58, _⟩ => ⟨S_, .f32⟩
  | .hbm, ⟨59, _⟩ => ⟨S4x16x40960x16, .f32⟩
  | .hbm, ⟨60, _⟩ => ⟨S4x16x40960x16, .f32⟩
  | _, _ => ⟨S4x40960x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_cst_0 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_call1_cst : Ref sig .tc := ⟨.hbm, 58, rfl⟩
abbrev main_call1_v0 : Ref sig .tc := ⟨.hbm, 59, rfl⟩
abbrev main_v26 : Ref sig .tc := ⟨.hbm, 60, rfl⟩

abbrev nD : Nat := 1
abbrev τ : Topo := Topo.v7x

variable {F : FTy → Type} [FloatOps F]

class Facts₀ : Prop where
  bcast_S4x40960x3_S4x40960x1x3_0_1_3 : S4x40960x3.BroadcastsInDim S4x40960x1x3 (![0, 1, 3] : Fin 3 → Fin S4x40960x1x3.rank)
  bcast_S4x40960x16_S4x40960x16x1_0_1_2 : S4x40960x16.BroadcastsInDim S4x40960x16x1 (![0, 1, 2] : Fin 3 → Fin S4x40960x16x1.rank)
  bcast_S_S4x40960x16x1 : S_.BroadcastsInDim S4x40960x16x1 (![] : Fin 0 → Fin S4x40960x16x1.rank)
  shapeCasts_S4x40960x1x3_S4x40960x3 : S4x40960x1x3.ShapeCasts S4x40960x3
  bcast_S1_S1x1x1x1_3 : S1.BroadcastsInDim S1x1x1x1 (![3] : Fin 1 → Fin S1x1x1x1.rank)
  bcast_S1x1x1x1_S4x40960x16x1_0_1_2_3 : S1x1x1x1.BroadcastsInDim S4x40960x16x1 (![0, 1, 2, 3] : Fin 4 → Fin S4x40960x16x1.rank)
  reducesTo_S4x40960x16x1_S4x40960x16_d3 : S4x40960x16x1.ReducesTo [3] S4x40960x16
  h_S_ : 0 < S_.numel
  bcast_S4x40960x16_S4x40960x16x3_0_1_2 : S4x40960x16.BroadcastsInDim S4x40960x16x3 (![0, 1, 2] : Fin 3 → Fin S4x40960x16x3.rank)
  bcast_S_S4x40960x16x3 : S_.BroadcastsInDim S4x40960x16x3 (![] : Fin 0 → Fin S4x40960x16x3.rank)
  bcast_S4x40960x1x3_S4x40960x16x3_0_1_2_3 : S4x40960x1x3.BroadcastsInDim S4x40960x16x3 (![0, 1, 2, 3] : Fin 4 → Fin S4x40960x16x3.rank)
  reducesTo_S4x40960x16x3_S4x40960x16_d3 : S4x40960x16x3.ReducesTo [3] S4x40960x16
  concatenates_S4x40960x16x1_S4x40960x16x3_S4x40960x16x3_S4x40960x16x3_S4x40960x16x10_d3 : Shape.Concatenates [S4x40960x16x1, S4x40960x16x3, S4x40960x16x3, S4x40960x16x3] S4x40960x16x10 3
  transposes_S16x4x40960x16_S4x16x40960x16_1_0_2_3 : S16x4x40960x16.Transposes [1, 0, 2, 3] S4x16x40960x16
  bcast_S_S16 : S_.BroadcastsInDim S16 (![] : Fin 0 → Fin S16.rank)
  bcast_S16_S1x16x1x1_1 : S16.BroadcastsInDim S1x16x1x1 (![1] : Fin 1 → Fin S1x16x1x1.rank)
  bcast_S1x16x1x1_S4x16x40960x16_0_1_2_3 : S1x16x1x1.BroadcastsInDim S4x16x40960x16 (![0, 1, 2, 3] : Fin 4 → Fin S4x16x40960x16.rank)
  bcast_S_S4x16x40960x16 : S_.BroadcastsInDim S4x16x40960x16 (![] : Fin 0 → Fin S4x16x40960x16.rank)
  gather_S4x40960x3_S4x40960x16x1_S4x40960x16x3_3_1_0_0_1_3_113_wf : GatherDims.WF S4x40960x3 S4x40960x16x1 S4x40960x16x3 [3] [1] [0] [1] [0] 3 ![1, 1, 3]
  dot_S16x10_S4x40960x16x10_S16x4x40960x16_1_3_0_012_n_n_wf : DotDims.WF S16x10 S4x40960x16x10 S16x4x40960x16 [1] [3] [0] [0, 1, 2] [] []

variable [Facts₀]

def gather_S4x40960x3_S4x40960x16x1_S4x40960x16x3_3_1_0_0_1_3_113 : GatherDims S4x40960x3 S4x40960x16x1 S4x40960x16x3 where
  offsetDims := [3]
  collapsedSliceDims := [1]
  operandBatchingDims := [0]
  startIndicesBatchingDims := [0]
  startIndexMap := [1]
  indexVectorDim := 3
  sliceSizes := ![1, 1, 3]
  wf := gather_S4x40960x3_S4x40960x16x1_S4x40960x16x3_3_1_0_0_1_3_113_wf
def dot_S16x10_S4x40960x16x10_S16x4x40960x16_1_3_0_012_n_n : DotDims S16x10 S4x40960x16x10 S16x4x40960x16 where
  lhsContracting := [1]
  rhsContracting := [3]
  lhsNonContracting := [0]
  rhsNonContracting := [0, 1, 2]
  lhsBatch := []
  rhsBatch := []
  wf := dot_S16x10_S4x40960x16x10_S16x4x40960x16_1_3_0_012_n_n_wf

class Facts : Prop extends Facts₀ where

variable [Facts]
-- ==== Proof.RelPosCell.lean ====
/-
  One output cell of the relative-position encoding, as a function of the numbers it depends on.

  For a point with coordinates `x : Fin 3 → EReal` and one of its neighbours with coordinates `n`, the
  encoding has ten features: the distance `sqrt (∑ d, (x d - n d)²)`, the three differences `x d - n d`, the point's
  own three coordinates and the neighbour's three. An output channel with weights `w : Fin 10 → EReal` takes
  their weighted sum, applies the folded batch normalisation `· * s + h` and clips at zero: `cell`, with the ten
  products added one after the other from the left. A sum over `Fin 10` in a commutative monoid is that same
  left-grouped sum (`sum_univ_ten`), which is all a contraction over the ten features needs to meet it; nothing
  has to be finite.
-/
import Idealize.ShloMosaic.PureOps.Ideal
import Idealize.ShloMosaic.PureOps.Ideal.Laws
import Idealize.ShloMosaic.Lib.ValueIdx
import Mathlib.Algebra.BigOperators.Fin

noncomputable section

namespace Cert.RelPos

open Idealize.ShloMosaic

/-- A sum over `Fin 9`, added up from the left. -/
theorem sum_univ_nine {M : Type*} [AddCommMonoid M] (f : Fin 9 → M) :
    ∑ i, f i = f 0 + f 1 + f 2 + f 3 + f 4 + f 5 + f 6 + f 7 + f 8 := by
  rw [Fin.sum_univ_castSucc, Fin.sum_univ_eight]; rfl

/-- A sum over `Fin 10`, added up from the left. -/
theorem sum_univ_ten {M : Type*} [AddCommMonoid M] (f : Fin 10 → M) :
    ∑ i, f i = f 0 + f 1 + f 2 + f 3 + f 4 + f 5 + f 6 + f 7 + f 8 + f 9 := by
  rw [Fin.sum_univ_castSucc, sum_univ_nine]; rfl

/-- The cell: the ten products added one after the other from the left, the squared distance as
    `(r₀² + r₁²) + r₂²`, then scale, shift and the clip at the zero word. -/
def cell (w : Fin 10 → EReal) (x n : Fin 3 → EReal) (s h : EReal) : EReal :=
  max ((w 0 * Ideal.sqrt ((x 0 - n 0) * (x 0 - n 0) + (x 1 - n 1) * (x 1 - n 1) + (x 2 - n 2) * (x 2 - n 2))
      + w 1 * (x 0 - n 0) + w 2 * (x 1 - n 1) + w 3 * (x 2 - n 2)
      + w 4 * x 0 + w 5 * x 1 + w 6 * x 2 + w 7 * n 0 + w 8 * n 1 + w 9 * n 2) * s + h)
    (Ideal.ofBits .f32 0x00000000#32)

/-! ## The whole result array

The result has shape [4, 16, 40960, 16]: batch `b`, output channel `o`, point `n`, neighbour slot `k`. Its entry
depends on row `o` of the weights [16, 10], on point `(b, n)` of the coordinates [4, 40960, 3], on neighbour
`(b, n, k)` of the gathered coordinates [4, 40960, 16, 3], and on the folded scale and shift of channel `o` (given as
functions of the channel, so that either program may read them from the array it keeps them in). -/

open Idealize.ShloMosaic.ValueIdx

/-- The entry at `(b, o, n, k)`. -/
def cellAt (W : (⟨2, ![16, 10]⟩ : Shape).Idx → EReal) (xyz : (⟨3, ![4, 40960, 3]⟩ : Shape).Idx → EReal)
    (nbr : (⟨4, ![4, 40960, 16, 3]⟩ : Shape).Idx → EReal) (sc sh : Fin 16 → EReal)
    (b : Fin 4) (o : Fin 16) (n : Fin 40960) (k : Fin 16) : EReal :=
  cell (fun c => W (ix2 o c)) (fun d => xyz (ix3 b n d)) (fun d => nbr (ix4 b n k d)) (sc o) (sh o)

/-- The result array, index by index. -/
def encode (W : (⟨2, ![16, 10]⟩ : Shape).Idx → EReal) (xyz : (⟨3, ![4, 40960, 3]⟩ : Shape).Idx → EReal)
    (nbr : (⟨4, ![4, 40960, 16, 3]⟩ : Shape).Idx → EReal) (sc sh : Fin 16 → EReal) :
    (⟨4, ![4, 16, 40960, 16]⟩ : Shape).Idx → EReal := fun i =>
  cellAt W xyz nbr sc sh ⟨(i 0).val, (i 0).isLt⟩ ⟨(i 1).val, (i 1).isLt⟩ ⟨(i 2).val, (i 2).isLt⟩ ⟨(i 3).val, (i 3).isLt⟩

theorem encode_ix4 (W : (⟨2, ![16, 10]⟩ : Shape).Idx → EReal) (xyz : (⟨3, ![4, 40960, 3]⟩ : Shape).Idx → EReal)
    (nbr : (⟨4, ![4, 40960, 16, 3]⟩ : Shape).Idx → EReal) (sc sh : Fin 16 → EReal)
    (b : Fin 4) (o : Fin 16) (n : Fin 40960) (k : Fin 16) :
    encode W xyz nbr sc sh (ix4 b o n k) = cellAt W xyz nbr sc sh b o n k := rfl

end Cert.RelPos

end
-- ==== Proof.RelPosBlock.lean ====
/-
  The kernel's result array is `encode` of the arrays its region finds.

  The grid has 4 × 640 points; point `(b, q)` works on batch `b` and the 64 points `64 q … 64 q + 63`. It reads
  the weights whole, the scale and shift rows whole, block `(b, q)` of the coordinates [1, 64, 3] and of the
  gathered neighbours [1, 64, 16, 3], and writes block `(b, 0, q, 0)` of the result, [1, 16, 64, 16]. What it
  writes at `(0, o, n, k)` of its block is the cell of row `o` of the weights, point `n` of its coordinate block,
  neighbour `(n, k)` of its neighbour block, and entry `o` of scale and shift — which is the cell `encode` has at
  `(b, o, 64 q + n, k)` of the whole arrays. The 2560 blocks tile the result, so the array the run leaves is
  `encode` everywhere.
-/
import proofs.«128464_j72464688218281_2_alg».proof.Proof.KernelValueP
import proofs.«128464_j72464688218281_2_alg».proof.Proof.RelPosCell
import Idealize.ShloMosaic.Lib.Pipeline.Value
import Idealize.ShloMosaic.Lib.ValueIdx

noncomputable section

namespace Cert.RelPos.Kernel

open Cert.KernelIdeal Cert.KernelIdeal.Gen Cert.KernelIdeal.ValueP
open Idealize.ShloMosaic Idealize.ShloMosaic.TcCoe Idealize.SL.Sem Idealize.ShloMosaic.ValueIdx Cert.RelPos
open Idealize.ShloMosaic.Pipeline (Dat)

/-! ## One cell of a block -/

/-- The block's entry at `(0, o, n, k)` is the cell of the loaded blocks' entries it depends on. -/
theorem block_cell (P0 : Vec Ideal S16x10 .f32) (P1 : Vec Ideal S1x64x3 .f32) (P2 : Vec Ideal S1x64x16x3 .f32)
    (P3 P4 : Vec Ideal S1x16 .f32) (o : Fin 16) (n : Fin 64) (k : Fin 16) (y : S1x16x64x16.Idx)
    (hy : y = ix4 (0 : Fin 1) o n k) :
    E5 (F := Ideal) P0 P1 P2 P3 P4 y
      = cell (fun c => P0 (ix2 o c)) (fun d => P1 (ix3 (0 : Fin 1) n d)) (fun d => P2 (ix4 (0 : Fin 1) n k d))
          (P3 (ix2 (0 : Fin 1) o)) (P4 (ix2 (0 : Fin 1) o)) := by
  subst hy
  have e0 : ix5_0 (ix4 (0 : Fin 1) o n k) = ix2 o (0 : Fin 10) := funext fun a => by match a with | ⟨0, _⟩ => rfl | ⟨1, _⟩ => rfl
  have e13 : ix5_13 (ix4 (0 : Fin 1) o n k) = ix2 o (1 : Fin 10) := funext fun a => by match a with | ⟨0, _⟩ => rfl | ⟨1, _⟩ => rfl
  have e16 : ix5_16 (ix4 (0 : Fin 1) o n k) = ix2 o (2 : Fin 10) := funext fun a => by match a with | ⟨0, _⟩ => rfl | ⟨1, _⟩ => rfl
  have e19 : ix5_19 (ix4 (0 : Fin 1) o n k) = ix2 o (3 : Fin 10) := funext fun a => by match a with | ⟨0, _⟩ => rfl | ⟨1, _⟩ => rfl
  have e22 : ix5_22 (ix4 (0 : Fin 1) o n k) = ix2 o (4 : Fin 10) := funext fun a => by match a with | ⟨0, _⟩ => rfl | ⟨1, _⟩ => rfl
  have e24 : ix5_24 (ix4 (0 : Fin 1) o n k) = ix2 o (5 : Fin 10) := funext fun a => by match a with | ⟨0, _⟩ => rfl | ⟨1, _⟩ => rfl
  have e26 : ix5_26 (ix4 (0 : Fin 1) o n k) = ix2 o (6 : Fin 10) := funext fun a => by match a with | ⟨0, _⟩ => rfl | ⟨1, _⟩ => rfl
  have e28 : ix5_28 (ix4 (0 : Fin 1) o n k) = ix2 o (7 : Fin 10) := funext fun a => by match a with | ⟨0, _⟩ => rfl | ⟨1, _⟩ => rfl
  have e30 : ix5_30 (ix4 (0 : Fin 1) o n k) = ix2 o (8 : Fin 10) := funext fun a => by match a with | ⟨0, _⟩ => rfl | ⟨1, _⟩ => rfl
  have e32 : ix5_32 (ix4 (0 : Fin 1) o n k) = ix2 o (9 : Fin 10) := funext fun a => by match a with | ⟨0, _⟩ => rfl | ⟨1, _⟩ => rfl
  have e1 : ix5_1 (ix4 (0 : Fin 1) o n k) = ix3 (0 : Fin 1) n (0 : Fin 3) := funext fun a => by match a with | ⟨0, _⟩ => rfl | ⟨1, _⟩ => rfl | ⟨2, _⟩ => rfl
  have e3 : ix5_3 (ix4 (0 : Fin 1) o n k) = ix3 (0 : Fin 1) n (0 : Fin 3) := funext fun a => by match a with | ⟨0, _⟩ => rfl | ⟨1, _⟩ => rfl | ⟨2, _⟩ => rfl
  have e5 : ix5_5 (ix4 (0 : Fin 1) o n k) = ix3 (0 : Fin 1) n (1 : Fin 3) := funext fun a => by match a with | ⟨0, _⟩ => rfl | ⟨1, _⟩ => rfl | ⟨2, _⟩ => rfl
  have e7 : ix5_7 (ix4 (0 : Fin 1) o n k) = ix3 (0 : Fin 1) n (1 : Fin 3) := funext fun a => by match a with | ⟨0, _⟩ => rfl | ⟨1, _⟩ => rfl | ⟨2, _⟩ => rfl
  have e9 : ix5_9 (ix4 (0 : Fin 1) o n k) = ix3 (0 : Fin 1) n (2 : Fin 3) := funext fun a => by match a with | ⟨0, _⟩ => rfl | ⟨1, _⟩ => rfl | ⟨2, _⟩ => rfl
  have e11 : ix5_11 (ix4 (0 : Fin 1) o n k) = ix3 (0 : Fin 1) n (2 : Fin 3) := funext fun a => by match a with | ⟨0, _⟩ => rfl | ⟨1, _⟩ => rfl | ⟨2, _⟩ => rfl
  have e14 : ix5_14 (ix4 (0 : Fin 1) o n k) = ix3 (0 : Fin 1) n (0 : Fin 3) := funext fun a => by match a with | ⟨0, _⟩ => rfl | ⟨1, _⟩ => rfl | ⟨2, _⟩ => rfl
  have e17 : ix5_17 (ix4 (0 : Fin 1) o n k) = ix3 (0 : Fin 1) n (1 : Fin 3) := funext fun a => by match a with | ⟨0, _⟩ => rfl | ⟨1, _⟩ => rfl | ⟨2, _⟩ => rfl
  have e20 : ix5_20 (ix4 (0 : Fin 1) o n k) = ix3 (0 : Fin 1) n (2 : Fin 3) := funext fun a => by match a with | ⟨0, _⟩ => rfl | ⟨1, _⟩ => rfl | ⟨2, _⟩ => rfl
  have e23 : ix5_23 (ix4 (0 : Fin 1) o n k) = ix3 (0 : Fin 1) n (0 : Fin 3) := funext fun a => by match a with | ⟨0, _⟩ => rfl | ⟨1, _⟩ => rfl | ⟨2, _⟩ => rfl
  have e25 : ix5_25 (ix4 (0 : Fin 1) o n k) = ix3 (0 : Fin 1) n (1 : Fin 3) := funext fun a => by match a with | ⟨0, _⟩ => rfl | ⟨1, _⟩ => rfl | ⟨2, _⟩ => rfl
  have e27 : ix5_27 (ix4 (0 : Fin 1) o n k) = ix3 (0 : Fin 1) n (2 : Fin 3) := funext fun a => by match a with | ⟨0, _⟩ => rfl | ⟨1, _⟩ => rfl | ⟨2, _⟩ => rfl
  have e2 : ix5_2 (ix4 (0 : Fin 1) o n k) = ix4 (0 : Fin 1) n k (0 : Fin 3) := funext fun a => by match a with | ⟨0, _⟩ => rfl | ⟨1, _⟩ => rfl | ⟨2, _⟩ => rfl | ⟨3, _⟩ => rfl
  have e4 : ix5_4 (ix4 (0 : Fin 1) o n k) = ix4 (0 : Fin 1) n k (0 : Fin 3) := funext fun a => by match a with | ⟨0, _⟩ => rfl | ⟨1, _⟩ => rfl | ⟨2, _⟩ => rfl | ⟨3, _⟩ => rfl
  have e6 : ix5_6 (ix4 (0 : Fin 1) o n k) = ix4 (0 : Fin 1) n k (1 : Fin 3) := funext fun a => by match a with | ⟨0, _⟩ => rfl | ⟨1, _⟩ => rfl | ⟨2, _⟩ => rfl | ⟨3, _⟩ => rfl
  have e8 : ix5_8 (ix4 (0 : Fin 1) o n k) = ix4 (0 : Fin 1) n k (1 : Fin 3) := funext fun a => by match a with | ⟨0, _⟩ => rfl | ⟨1, _⟩ => rfl | ⟨2, _⟩ => rfl | ⟨3, _⟩ => rfl
  have e10 : ix5_10 (ix4 (0 : Fin 1) o n k) = ix4 (0 : Fin 1) n k (2 : Fin 3) := funext fun a => by match a with | ⟨0, _⟩ => rfl | ⟨1, _⟩ => rfl | ⟨2, _⟩ => rfl | ⟨3, _⟩ => rfl
  have e12 : ix5_12 (ix4 (0 : Fin 1) o n k) = ix4 (0 : Fin 1) n k (2 : Fin 3) := funext fun a => by match a with | ⟨0, _⟩ => rfl | ⟨1, _⟩ => rfl | ⟨2, _⟩ => rfl | ⟨3, _⟩ => rfl
  have e15 : ix5_15 (ix4 (0 : Fin 1) o n k) = ix4 (0 : Fin 1) n k (0 : Fin 3) := funext fun a => by match a with | ⟨0, _⟩ => rfl | ⟨1, _⟩ => rfl | ⟨2, _⟩ => rfl | ⟨3, _⟩ => rfl
  have e18 : ix5_18 (ix4 (0 : Fin 1) o n k) = ix4 (0 : Fin 1) n k (1 : Fin 3) := funext fun a => by match a with | ⟨0, _⟩ => rfl | ⟨1, _⟩ => rfl | ⟨2, _⟩ => rfl | ⟨3, _⟩ => rfl
  have e21 : ix5_21 (ix4 (0 : Fin 1) o n k) = ix4 (0 : Fin 1) n k (2 : Fin 3) := funext fun a => by match a with | ⟨0, _⟩ => rfl | ⟨1, _⟩ => rfl | ⟨2, _⟩ => rfl | ⟨3, _⟩ => rfl
  have e29 : ix5_29 (ix4 (0 : Fin 1) o n k) = ix4 (0 : Fin 1) n k (0 : Fin 3) := funext fun a => by match a with | ⟨0, _⟩ => rfl | ⟨1, _⟩ => rfl | ⟨2, _⟩ => rfl | ⟨3, _⟩ => rfl
  have e31 : ix5_31 (ix4 (0 : Fin 1) o n k) = ix4 (0 : Fin 1) n k (1 : Fin 3) := funext fun a => by match a with | ⟨0, _⟩ => rfl | ⟨1, _⟩ => rfl | ⟨2, _⟩ => rfl | ⟨3, _⟩ => rfl
  have e33 : ix5_33 (ix4 (0 : Fin 1) o n k) = ix4 (0 : Fin 1) n k (2 : Fin 3) := funext fun a => by match a with | ⟨0, _⟩ => rfl | ⟨1, _⟩ => rfl | ⟨2, _⟩ => rfl | ⟨3, _⟩ => rfl
  have e34 : ix5_34 (ix4 (0 : Fin 1) o n k) = ix2 (0 : Fin 1) o := funext fun a => by match a with | ⟨0, _⟩ => rfl | ⟨1, _⟩ => rfl
  have e35 : ix5_35 (ix4 (0 : Fin 1) o n k) = ix2 (0 : Fin 1) o := funext fun a => by match a with | ⟨0, _⟩ => rfl | ⟨1, _⟩ => rfl
  simp only [E5, e0, e1, e2, e3, e4, e5, e6, e7, e8, e9, e10, e11, e12, e13, e14, e15, e16, e17, e18, e19, e20, e21, e22, e23, e24, e25, e26, e27, e28, e29, e30, e31, e32, e33, e34, e35]
  rfl

/-- Zero offsets on two, three and four axes. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- What the body leaves in the result's staging buffer is the block function `E5` of the five loaded blocks: its
    loads and its one store go through the whole buffers. -/
theorem out_eq (x0 : Vec Ideal S1x64x3 .f32) (x1 : Vec Ideal S1x64x16x3 .f32) (x2 : Vec Ideal S16x10 .f32)
    (x3 x4 : Vec Ideal S1x16 .f32) (y : S1x16x64x16.Idx) :
    out0_5 (F := Ideal) x0 x1 x2 x3 x4 y = E5 (F := Ideal) x2 x0 x1 x3 x4 y := by
  unfold out0_5
  simp only [View.ld_unit_zero (S := S1x64x3) hz3, View.ld_unit_zero (S := S1x64x16x3) hz4,
    View.ld_unit_zero (S := S16x10) hz2, View.ld_unit_zero (S := S1x16) hz2]
  exact canon5_eq x2 x0 x1 x3 x4 y

/-! ## Where a grid point's blocks lie

The reads below hold whatever the float operations are; they only follow the blocks' positions. -/

section Blocks

variable {F : FTy → Type} [FloatOps F]
variable (m : (ℓ : Loc nD τ sig) → Buf (Elt F) ℓ)

/-- The printed index maps at a grid point: the coordinate and neighbour blocks move with the result's block along
    the batch and point axes; every other block index is 0. -/
theorem idx_facts (t : Fin cfg0.N) :
    win0_0.index t (0 : Fin 3) = win0_5.index t (0 : Fin 4) ∧ win0_0.index t (1 : Fin 3) = win0_5.index t (2 : Fin 4)
    ∧ win0_0.index t (2 : Fin 3) = 0
    ∧ win0_1.index t (0 : Fin 4) = win0_5.index t (0 : Fin 4) ∧ win0_1.index t (1 : Fin 4) = win0_5.index t (2 : Fin 4)
    ∧ win0_1.index t (2 : Fin 4) = 0 ∧ win0_1.index t (3 : Fin 4) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 4) = 0 ∧ win0_5.index t (3 : Fin 4) = 0 :=
  ⟨rfl, rfl, rfl, rfl, rfl, rfl, rfl, rfl, rfl, rfl, rfl, rfl, rfl, rfl, rfl⟩

/-- The weights' block is the whole weight array. -/
theorem wts_block (c : Dev nD) (t : Fin cfg0.N) (x : S16x10.Idx) :
    iblk m c 2 t x = V m c (Pipeline.arrRef spec0 2) x := by
  obtain ⟨-, -, -, -, -, -, -, e0, e1, -⟩ := idx_facts t
  unfold iblk
  rw [View.read_apply]
  refine congrArg (V m c (Pipeline.arrRef spec0 2)) (funext fun a => Fin.ext ?_)
  match a with
  | ⟨0, _⟩ => show win0_2.index t (0 : Fin 2) * 16 + 1 * (x 0).val = (x 0).val; rw [e0]; omega
  | ⟨1, _⟩ => show win0_2.index t (1 : Fin 2) * 10 + 1 * (x 1).val = (x 1).val; rw [e1]; omega

/-- The scale row's block is the whole row. -/
theorem scale_block (c : Dev nD) (t : Fin cfg0.N) (x : S1x16.Idx) :
    iblk m c 3 t x = V m c (Pipeline.arrRef spec0 3) x := by
  obtain ⟨-, -, -, -, -, -, -, -, -, e0, e1, -⟩ := idx_facts t
  unfold iblk
  rw [View.read_apply]
  refine congrArg (V m c (Pipeline.arrRef spec0 3)) (funext fun a => Fin.ext ?_)
  match a with
  | ⟨0, _⟩ => show win0_3.index t (0 : Fin 2) * 1 + 1 * (x 0).val = (x 0).val; rw [e0]; omega
  | ⟨1, _⟩ => show win0_3.index t (1 : Fin 2) * 16 + 1 * (x 1).val = (x 1).val; rw [e1]; omega

/-- The shift row's block is the whole row. -/
theorem shift_block (c : Dev nD) (t : Fin cfg0.N) (x : S1x16.Idx) :
    iblk m c 4 t x = V m c (Pipeline.arrRef spec0 4) x := by
  obtain ⟨-, -, -, -, -, -, -, -, -, -, -, e0, e1, -⟩ := idx_facts t
  unfold iblk
  rw [View.read_apply]
  refine congrArg (V m c (Pipeline.arrRef spec0 4)) (funext fun a => Fin.ext ?_)
  match a with
  | ⟨0, _⟩ => show win0_4.index t (0 : Fin 2) * 1 + 1 * (x 0).val = (x 0).val; rw [e0]; omega
  | ⟨1, _⟩ => show win0_4.index t (1 : Fin 2) * 16 + 1 * (x 1).val = (x 1).val; rw [e1]; omega

/-- The coordinate block at a point whose result block has batch index `B` and point-block index `Q`: entry
    `(0, n, d)` is coordinate `d` of point `64 Q + n` of batch `B`. -/
theorem xyz_block (c : Dev nD) (t : Fin cfg0.N) (n : Fin 64) (d : Fin 3) (b' : Fin 4) (n' : Fin 40960)
    (hb : b'.val = win0_5.index t (0 : Fin 4)) (hn : n'.val = win0_5.index t (2 : Fin 4) * 64 + n.val) :
    iblk m c 0 t (ix3 (0 : Fin 1) n d) = V m c (Pipeline.arrRef spec0 0) (ix3 b' n' d) := by
  obtain ⟨e0, e1, e2, -⟩ := idx_facts t
  unfold iblk
  rw [View.read_apply]
  refine congrArg (V m c (Pipeline.arrRef spec0 0)) (funext fun a => Fin.ext ?_)
  match a with
  | ⟨0, _⟩ => show win0_0.index t (0 : Fin 3) * 1 + 1 * 0 = b'.val; rw [e0, hb]; omega
  | ⟨1, _⟩ => show win0_0.index t (1 : Fin 3) * 64 + 1 * n.val = n'.val; rw [e1, hn]; omega
  | ⟨2, _⟩ => show win0_0.index t (2 : Fin 3) * 3 + 1 * d.val = d.val; rw [e2]; omega

/-- The neighbour block likewise: entry `(0, n, k, d)` is coordinate `d` of neighbour `k` of point `64 Q + n`. -/
theorem nbr_block (c : Dev nD) (t : Fin cfg0.N) (n : Fin 64) (k : Fin 16) (d : Fin 3) (b' : Fin 4) (n' : Fin 40960)
    (hb : b'.val = win0_5.index t (0 : Fin 4)) (hn : n'.val = win0_5.index t (2 : Fin 4) * 64 + n.val) :
    iblk m c 1 t (ix4 (0 : Fin 1) n k d) = V m c (Pipeline.arrRef spec0 1) (ix4 b' n' k d) := by
  obtain ⟨-, -, -, e0, e1, e2, e3, -⟩ := idx_facts t
  unfold iblk
  rw [View.read_apply]
  have hidx : ((cfg0.win 1).blk t).view.emb (ix4 (0 : Fin 1) n k d) = ix4 b' n' k d := funext fun a => Fin.ext (by
    match a with
    | ⟨0, _⟩ => show win0_1.index t (0 : Fin 4) * 1 + 1 * 0 = b'.val; rw [e0, hb]; omega
    | ⟨1, _⟩ => show win0_1.index t (1 : Fin 4) * 64 + 1 * n.val = n'.val; rw [e1, hn]; omega
    | ⟨2, _⟩ => show win0_1.index t (2 : Fin 4) * 16 + 1 * k.val = k.val; rw [e2]; omega
    | ⟨3, _⟩ => show win0_1.index t (3 : Fin 4) * 3 + 1 * d.val = d.val; rw [e3]; omega)
  rw [hidx]
  exact cast_eq _ _

end Blocks

/-! ## The array the run leaves -/

variable (m : (ℓ : Loc nD τ sig) → Buf (Elt Ideal) ℓ) (ρ : Dev nD → PrngReg)

/-- `encode` of the arrays the region finds: the weights, the coordinates, the gathered neighbours, and the scale and
    shift rows read at their one row. -/
def found (c : Dev nD) : S4x16x40960x16.Idx → EReal :=
  encode (V m c (Pipeline.arrRef spec0 2)) (V m c (Pipeline.arrRef spec0 0)) (V m c (Pipeline.arrRef spec0 1))
    (fun o => V m c (Pipeline.arrRef spec0 3) (ix2 (0 : Fin 1) o)) (fun o => V m c (Pipeline.arrRef spec0 4) (ix2 (0 : Fin 1) o))

/-- Where entry `(0, o, n, k)` of the result's block at a grid point lies in the result. -/
theorem emb_coords (t : Fin cfg0.N) (o : Fin 16) (n : Fin 64) (k : Fin 16) :
    ((((cfg0.win 5).blk t).view.emb (ix4 (0 : Fin 1) o n k)) 0).val = win0_5.index t (0 : Fin 4)
    ∧ ((((cfg0.win 5).blk t).view.emb (ix4 (0 : Fin 1) o n k)) 1).val = o.val
    ∧ ((((cfg0.win 5).blk t).view.emb (ix4 (0 : Fin 1) o n k)) 2).val = win0_5.index t (2 : Fin 4) * 64 + n.val
    ∧ ((((cfg0.win 5).blk t).view.emb (ix4 (0 : Fin 1) o n k)) 3).val = k.val := by
  obtain ⟨-, -, -, -, -, -, -, -, -, -, -, -, -, e1, e3⟩ := idx_facts t
  refine ⟨?_, ?_, ?_, ?_⟩
  · show win0_5.index t (0 : Fin 4) * 1 + 1 * 0 = _; omega
  · show win0_5.index t (1 : Fin 4) * 16 + 1 * o.val = _; rw [e1]; omega
  · show win0_5.index t (2 : Fin 4) * 64 + 1 * n.val = _; omega
  · show win0_5.index t (3 : Fin 4) * 16 + 1 * k.val = _; rw [e3]; omega

/-- What a grid point writes back is its block of `found`. -/
theorem flushed_eq (c : Dev nD) (t : Fin cfg0.N) :
    (dats m 0 c).flushed 5 t = ((cfg0.win 5).blk t).view.read (Elt Ideal) (found m c) := by
  rw [flushed5]
  funext y
  obtain ⟨o, n, k, hy⟩ : ∃ (o : Fin 16) (n : Fin 64) (k : Fin 16), y = ix4 (0 : Fin 1) o n k :=
    ⟨y 1, y 2, y 3, (eq_ix4 y).trans (by rw [Fin.eq_zero (y 0)]; rfl)⟩
  rw [View.read_apply]
  refine (out_eq (iblk m c 0 t) (iblk m c 1 t) (iblk m c 2 t) (iblk m c 3 t) (iblk m c 4 t) y).trans ?_
  refine (block_cell (iblk m c 2 t) (iblk m c 0 t) (iblk m c 1 t) (iblk m c 3 t) (iblk m c 4 t) o n k y hy).trans ?_
  subst hy
  obtain ⟨h0, h1, h2, h3⟩ := emb_coords t o n k
  generalize ((cfg0.win 5).blk t).view.emb (ix4 (0 : Fin 1) o n k) = i at h0 h1 h2 h3
  have ho : (⟨(i 1).val, (i 1).isLt⟩ : Fin 16) = o := Fin.ext h1
  have hk : (⟨(i 3).val, (i 3).isLt⟩ : Fin 16) = k := Fin.ext h3
  have hW : (fun c' : Fin 10 => iblk m c 2 t (ix2 o c')) = fun c' => V m c (Pipeline.arrRef spec0 2) (ix2 o c') :=
    funext fun c' => wts_block m c t _
  have hX : (fun d : Fin 3 => iblk m c 0 t (ix3 (0 : Fin 1) n d))
      = fun d => V m c (Pipeline.arrRef spec0 0) (ix3 (⟨(i 0).val, (i 0).isLt⟩ : Fin 4) (⟨(i 2).val, (i 2).isLt⟩ : Fin 40960) d) :=
    funext fun d => xyz_block m c t n d _ _ h0 h2
  have hN : (fun d : Fin 3 => iblk m c 1 t (ix4 (0 : Fin 1) n k d))
      = fun d => V m c (Pipeline.arrRef spec0 1) (ix4 (⟨(i 0).val, (i 0).isLt⟩ : Fin 4) (⟨(i 2).val, (i 2).isLt⟩ : Fin 40960) k d) :=
    funext fun d => nbr_block m c t n k d _ _ h0 h2
  rw [hW, hX, hN, scale_block m c t, shift_block m c t]
  show _ = cast _ (found m c i)
  unfold found encode cellAt
  rw [ho, hk]
  exact (cast_eq _ _).symm

/-- An index of the result lies in a grid point's block iff each of its coordinates lies in the block's range. -/
theorem mem_blk (t : Fin cfg0.N) (i : S4x16x40960x16.Idx) :
    i ∈ ((cfg0.win 5).blk t).view.set ↔ ∀ a : Fin 4, win0_5.index t a * S1x16x64x16.size a ≤ (i a).val
      ∧ (i a).val < win0_5.index t a * S1x16x64x16.size a + S1x16x64x16.size a := by
  show i ∈ ((View.whole main_v12).slice (win0_5.rect t)).set ↔ _
  rw [View.set_slice_whole, Rect.mem_set_unit]
  exact Iff.rfl

/-- Grid point `640 b + q` works on batch `b` and point-block `q`. -/
theorem point_idx (b : Fin 4) (q : Fin 640) (h : b.val * 640 + q.val < cfg0.N) :
    win0_5.index ⟨b.val * 640 + q.val, h⟩ (0 : Fin 4) = b.val ∧ win0_5.index ⟨b.val * 640 + q.val, h⟩ (2 : Fin 4) = q.val := by
  have hb := b.isLt
  have hq := q.isLt
  constructor
  · show (BitVec.ofNat 32 ((b.val * 640 + q.val) / 640 % 4)).toNat = b.val
    rw [BitVec.toNat_ofNat]
    show (b.val * 640 + q.val) / 640 % 4 % 4294967296 = b.val
    omega
  · show (BitVec.ofNat 32 ((b.val * 640 + q.val) / 1 % 640)).toNat = q.val
    rw [BitVec.toNat_ofNat]
    show (b.val * 640 + q.val) / 1 % 640 % 4294967296 = q.val
    omega

/-- The 2560 blocks cover the result: index `(b, o, n, k)` lies in the block of grid point `640 b + n / 64`. -/
theorem covered (i : S4x16x40960x16.Idx) :
    ∃ t : Fin cfg0.N, (cfg0.win 5).flush t = true ∧ i ∈ ((cfg0.win 5).blk t).view.set := by
  have h0 : (i 0).val < 4 := (i 0).isLt
  have h1 : (i 1).val < 16 := (i 1).isLt
  have h2 : (i 2).val < 40960 := (i 2).isLt
  have h3 : (i 3).val < 16 := (i 3).isLt
  have hN : (i 0).val * 640 + (i 2).val / 64 < cfg0.N := by rw [show cfg0.N = 2560 from N_0]; omega
  have p0 : win0_5.index ⟨(i 0).val * 640 + (i 2).val / 64, hN⟩ (0 : Fin 4) = (i 0).val :=
    (point_idx ⟨(i 0).val, h0⟩ ⟨(i 2).val / 64, by omega⟩ hN).1
  have p2 : win0_5.index ⟨(i 0).val * 640 + (i 2).val / 64, hN⟩ (2 : Fin 4) = (i 2).val / 64 :=
    (point_idx ⟨(i 0).val, h0⟩ ⟨(i 2).val / 64, by omega⟩ hN).2
  obtain ⟨-, -, -, -, -, -, -, -, -, -, -, -, -, e1, e3⟩ := idx_facts ⟨(i 0).val * 640 + (i 2).val / 64, hN⟩
  refine ⟨⟨(i 0).val * 640 + (i 2).val / 64, hN⟩, flush0_5 _, ?_⟩
  rw [mem_blk]
  intro a
  match a with
  | ⟨0, _⟩ =>
    show win0_5.index ⟨(i 0).val * 640 + (i 2).val / 64, hN⟩ (0 : Fin 4) * 1 ≤ (i 0).val
      ∧ (i 0).val < win0_5.index ⟨(i 0).val * 640 + (i 2).val / 64, hN⟩ (0 : Fin 4) * 1 + 1
    rw [p0]; omega
  | ⟨1, _⟩ =>
    show win0_5.index ⟨(i 0).val * 640 + (i 2).val / 64, hN⟩ (1 : Fin 4) * 16 ≤ (i 1).val
      ∧ (i 1).val < win0_5.index ⟨(i 0).val * 640 + (i 2).val / 64, hN⟩ (1 : Fin 4) * 16 + 16
    rw [e1]; omega
  | ⟨2, _⟩ =>
    show win0_5.index ⟨(i 0).val * 640 + (i 2).val / 64, hN⟩ (2 : Fin 4) * 64 ≤ (i 2).val
      ∧ (i 2).val < win0_5.index ⟨(i 0).val * 640 + (i 2).val / 64, hN⟩ (2 : Fin 4) * 64 + 64
    rw [p2]; omega
  | ⟨3, _⟩ =>
    show win0_5.index ⟨(i 0).val * 640 + (i 2).val / 64, hN⟩ (3 : Fin 4) * 16 ≤ (i 3).val
      ∧ (i 3).val < win0_5.index ⟨(i 0).val * 640 + (i 2).val / 64, hN⟩ (3 : Fin 4) * 16 + 16
    rw [e3]; omega

/-- The result array after the run is `found`. -/
theorem final (c : Dev nD) : (dats m 0 c).arrAt 5 cfg0.N = found m c :=
  (dats m 0 c).arrAt_eq_of_cover 5 (found m c) (fun t _ => flushed_eq m c t) covered

/-- Every weakly fair execution of the kernel's program terminates with the result array at `found` and the
    arguments unchanged. -/
theorem run : θ_run defs (onTc (τ := τ) (main (F := Ideal))) ⟨m, fun _ => 0, ρ⟩ fun r => ∀ c : Dev nD,
      r.2.mem ((c : Thread nD τ).loc main_v12) = found m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.RelPos.Kernel

end
-- ==== Proof.LibOpenLists.lean ====
/-
  Two programs' host operations read side by side. A line of host operations turns the buffers' contents before it into
  the contents after it (the fold `after`). Opened operation by operation, the contents of one result buffer become a
  term in the contents the line started from; when two programs apply the same operations in the same order to contents
  that agree, the two terms are the same term, and an equation between a buffer of one and a buffer of the other is
  closed without unfolding any operation (a gather, a scatter, a sort stay closed). A line cut in two is read through
  the cut; a change of float format is the identity on extended reals, so a table rounded to another format is the table.
-/
import Idealize.ShloMosaic.Lib.StableHlo.Run
import Idealize.ShloMosaic.PureOps.Ideal

noncomputable section

namespace Cert.OpenLists

open Idealize.ShloMosaic Idealize.ShloMosaic.StableHlo

/-- Two lines run one after the other: the contents after the second, from the contents after the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- A table rounded to a narrower float format is the table, on extended reals. -/
theorem truncf_id {s : Shape} {φ ψ : FTy} (a : FVec Ideal s φ) (h : ψ.bits < φ.bits) : (truncf ψ a h : FVec Ideal s ψ) = a := rfl

/-- A table widened to a wider float format is the table, on extended reals. -/
theorem extf_id {s : Shape} {φ ψ : FTy} (a : FVec Ideal s φ) (h : φ.bits < ψ.bits) : (extf ψ a h : FVec Ideal s ψ) = a := rfl

/-- Opens every `after <literal list> V (Proc.devRef .tc r)` in the goal, on both sides of an equation and in every
    conjunct, down to the contents the lines started from, in one pass; hypotheses that relate the two programs' starting
    contents (`vk … = vr …`) are rewritten on the way. What is left, if anything, is an equation between the same operations
    spelt in the two programs' vocabularies: `rfl` — provided no side is applied to an index or wrapped in something `rfl`
    would have to unfold. -/
macro "open_lists" "[" hs:Lean.Parser.Tactic.simpLemma,* "]" : tactic =>
  `(tactic| (simp (disch := decide) only [after_append, after_cons, after_nil,
      nullary_result', unary_result', binary_result', ternary_result', quaternary_result', reshape_result',
      nullary_result_ne', unary_result_ne', binary_result_ne', ternary_result_ne', quaternary_result_ne', reshape_result_ne',
      cast_eq, truncf_id, extf_id, and_self, and_true, true_and, $hs,*]))

end Cert.OpenLists

end
-- ==== Proof.RelPosRefRun.lean ====
/-
  The reference's run: every weakly fair execution of its @main terminates with the result buffer at the last
  stage `val_main_v26` of the argument arrays, the arguments unchanged.

  A line of host operations turns the buffers' contents before it into the contents after it, and a line cut in
  two is its second part run from what its first part leaves. The reference's 53 operations are cut in front of
  the join of the four feature pieces: after the first 33 the pieces' buffers hold their stages of the arguments
  (`head_*`), and the last 20, run from ANY contents that hold those stages in those buffers, leave the last stage
  in the result buffer (`tail_term`) — the join's result is the join of what its four operand buffers hold.
-/
import proofs.«128464_j72464688218281_2_alg».proof.Proof.RefReadP
import proofs.«128464_j72464688218281_2_alg».proof.Proof.LibOpenLists
import Idealize.ShloMosaic.Lib.StableHlo.Run

noncomputable section

namespace Cert.RelPos.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The contents of a buffer after a literal line of operations, as the operations' composed term of the contents
    before it: an operation's result at its own buffer is its function of its operands' contents, every other
    buffer is as it was; a four-operand join reads each operand at its own buffer; a transport along a buffer's
    type is the identity. -/
macro "open_line" : tactic =>
  `(tactic| (simp (disch := decide) only [after_cons, after_nil,
      nullary_result', unary_result', binary_result', ternary_result', quaternary_result', reshape_result', nary4_result',
      nullary_result_ne', unary_result_ne', binary_result_ne', ternary_result_ne', quaternary_result_ne', reshape_result_ne',
      nary_result_ne', cast_eq]))

/-! ## After the first 33 operations -/

set_option maxRecDepth 8192 in
theorem head_dist (m : (ℓ : Loc nD τ sig) → Buf (Elt F) ℓ) (c : Dev nD) :
    after (List.take 33 (ops (F := F))) (launchContents m c) (Proc.devRef .tc main_v9) = val_main_v9 (F := F) (m ((c.tc : Thread nD τ).loc main_arg0)) (m ((c.tc : Thread nD τ).loc main_arg2)) := by
  delta ops
  simp only [List.take_succ_cons, List.take_zero]
  open_line
  rfl

set_option maxRecDepth 8192 in
theorem head_diff (m : (ℓ : Loc nD τ sig) → Buf (Elt F) ℓ) (c : Dev nD) :
    after (List.take 33 (ops (F := F))) (launchContents m c) (Proc.devRef .tc main_v5) = val_main_v5 (F := F) (m ((c.tc : Thread nD τ).loc main_arg0)) (m ((c.tc : Thread nD τ).loc main_arg2)) := by
  delta ops
  simp only [List.take_succ_cons, List.take_zero]
  open_line
  rfl

set_option maxRecDepth 8192 in
theorem head_tile (m : (ℓ : Loc nD τ sig) → Buf (Elt F) ℓ) (c : Dev nD) :
    after (List.take 33 (ops (F := F))) (launchContents m c) (Proc.devRef .tc main_v4) = val_main_v4 (F := F) (m ((c.tc : Thread nD τ).loc main_arg0)) := by
  delta ops
  simp only [List.take_succ_cons, List.take_zero]
  open_line
  rfl

set_option maxRecDepth 8192 in
theorem head_nbr (m : (ℓ : Loc nD τ sig) → Buf (Elt F) ℓ) (c : Dev nD) :
    after (List.take 33 (ops (F := F))) (launchContents m c) (Proc.devRef .tc main_v2) = val_main_v2 (F := F) (m ((c.tc : Thread nD τ).loc main_arg0)) (m ((c.tc : Thread nD τ).loc main_arg2)) := by
  delta ops
  simp only [List.take_succ_cons, List.take_zero]
  open_line
  rfl

theorem head_arg3 (m : (ℓ : Loc nD τ sig) → Buf (Elt F) ℓ) (c : Dev nD) :
    after (List.take 33 (ops (F := F))) (launchContents m c) (Proc.devRef .tc main_arg3) = m ((c.tc : Thread nD τ).loc main_arg3) := by
  delta ops
  simp only [List.take_succ_cons, List.take_zero]
  open_line

theorem head_arg4 (m : (ℓ : Loc nD τ sig) → Buf (Elt F) ℓ) (c : Dev nD) :
    after (List.take 33 (ops (F := F))) (launchContents m c) (Proc.devRef .tc main_arg4) = m ((c.tc : Thread nD τ).loc main_arg4) := by
  delta ops
  simp only [List.take_succ_cons, List.take_zero]
  open_line

theorem head_arg5 (m : (ℓ : Loc nD τ sig) → Buf (Elt F) ℓ) (c : Dev nD) :
    after (List.take 33 (ops (F := F))) (launchContents m c) (Proc.devRef .tc main_arg5) = m ((c.tc : Thread nD τ).loc main_arg5) := by
  delta ops
  simp only [List.take_succ_cons, List.take_zero]
  open_line

theorem head_arg6 (m : (ℓ : Loc nD τ sig) → Buf (Elt F) ℓ) (c : Dev nD) :
    after (List.take 33 (ops (F := F))) (launchContents m c) (Proc.devRef .tc main_arg6) = m ((c.tc : Thread nD τ).loc main_arg6) := by
  delta ops
  simp only [List.take_succ_cons, List.take_zero]
  open_line

theorem head_arg7 (m : (ℓ : Loc nD τ sig) → Buf (Elt F) ℓ) (c : Dev nD) :
    after (List.take 33 (ops (F := F))) (launchContents m c) (Proc.devRef .tc main_arg7) = m ((c.tc : Thread nD τ).loc main_arg7) := by
  delta ops
  simp only [List.take_succ_cons, List.take_zero]
  open_line

/-! ## The last 20 operations, from any contents -/

set_option maxRecDepth 8192 in
theorem tail_term (W : Valuation τ sig (Elt F))
    (x0 : (⟨S4x40960x3, .f32⟩ : BufTy).Contents (Elt F)) (x2 : (⟨S4x40960x16, .i32⟩ : BufTy).Contents (Elt F))
    (x3 : (⟨S16x10, .f32⟩ : BufTy).Contents (Elt F)) (x4 x5 x6 x7 : (⟨S16, .f32⟩ : BufTy).Contents (Elt F))
    (h9 : W (Proc.devRef .tc main_v9) = val_main_v9 (F := F) x0 x2) (h5 : W (Proc.devRef .tc main_v5) = val_main_v5 (F := F) x0 x2)
    (h4 : W (Proc.devRef .tc main_v4) = val_main_v4 (F := F) x0) (h2 : W (Proc.devRef .tc main_v2) = val_main_v2 (F := F) x0 x2)
    (h3 : W (Proc.devRef .tc main_arg3) = x3) (ha4 : W (Proc.devRef .tc main_arg4) = x4) (ha5 : W (Proc.devRef .tc main_arg5) = x5)
    (ha6 : W (Proc.devRef .tc main_arg6) = x6) (ha7 : W (Proc.devRef .tc main_arg7) = x7) :
    after (List.drop 33 (ops (F := F))) W (Proc.devRef .tc main_v26) = val_main_v26 (F := F) x0 x2 x3 x4 x5 x6 x7 := by
  subst h3 ha4 ha5 ha6 ha7
  delta ops
  simp only [List.drop_succ_cons, List.drop_zero]
  open_line
  unfold val_main_v26 val_main_v25 val_main_v24 val_main_v23 val_main_v22 val_main_v21 val_main_v20 val_main_v19 val_main_v18
    val_main_v17 val_main_v16 val_main_v15 val_main_v14 val_main_v13 val_main_cst_0 val_main_v12 val_main_v11 val_main_v10
    val_main_call1_v0 val_main_call1_cst
  rw [← h9, ← h5, ← h4, ← h2]
  rfl

/-! ## The whole line -/

/-- The result buffer after the whole line holds the last stage of the arguments. -/
theorem result_term (m : (ℓ : Loc nD τ sig) → Buf (Elt F) ℓ) (c : Dev nD) :
    after (ops (F := F)) (launchContents m c) (Proc.devRef .tc main_v26)
      = val_main_v26 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have e : after (ops (F := F)) (launchContents m c)
      = after (List.drop 33 (ops (F := F))) (after (List.take 33 (ops (F := F))) (launchContents m c)) := by
    rw [← Cert.OpenLists.after_append, List.take_append_drop]
  rw [e]
  exact tail_term _ _ _ _ _ _ _ _ (head_dist m c) (head_diff m c) (head_tile m c) (head_nbr m c)
    (head_arg3 m c) (head_arg4 m c) (head_arg5 m c) (head_arg6 m c) (head_arg7 m c)

set_option maxRecDepth 8192 in
set_option maxHeartbeats 2000000 in
/-- Every weakly fair execution of the reference's @main terminates with the result at the last stage of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
        = val_main_v26 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v26).trans (result_term m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.RelPos.RefRun

end
-- ==== Proof.RelPosHost.lean ====
/-
  What the kernel's region finds in the three buffers the host fills before it.

  Before the region the kernel's program gathers the neighbours' coordinates, and folds the batch normalisation
  into a scale `γ · rsqrt (σ² + ε)` and a shift `β − γ · μ · rsqrt (σ² + ε)`, each viewed as one row [1, 16]. The
  reference applies the same operations in the same order to the same arguments, so each of the three buffers holds
  the reference's own stage — the gathered array `val_main_v2`, the scale `val_main_v16`, the shift `val_main_v20` (the
  last two behind the view as a row) — whatever the float operations are: the two spellings are one term.
-/
import proofs.«128464_j72464688218281_2_alg».proof.Proof.Gen.KernelIdeal.Frame
import proofs.«128464_j72464688218281_2_alg».proof.Proof.RefReadP

noncomputable section

namespace Cert.RelPos.Host

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The contents of a buffer after a line of host operations, as the operations' composed term of the contents
    before it (each operation's result at its own buffer, any other buffer as it was; the transports along a
    buffer's type dropped). -/
macro "host_term" : tactic =>
  `(tactic| (simp (disch := decide) only [after_cons, after_nil,
      nullary_result', unary_result', binary_result', ternary_result', quaternary_result', reshape_result',
      nullary_result_ne', unary_result_ne', binary_result_ne', ternary_result_ne', quaternary_result_ne', reshape_result_ne',
      cast_eq]))

set_option maxRecDepth 8192 in
/-- The gathered neighbour coordinates. -/
theorem found_nbr (c : Dev nD) :
    V m c main_v2 = Cert.ReferenceIdeal.ReadP.val_main_v2 (F := F) (m ((c : Thread nD τ).loc main_arg0)) (m ((c : Thread nD τ).loc main_arg2)) := by
  dsimp only [Gen.V]
  simp only [Gen.hostOps0, Gen.hostOps0_1, Gen.hostOps0_2, List.flatten_cons, List.flatten_nil, List.append_nil, List.cons_append,
    List.nil_append]
  host_term
  rfl

set_option maxRecDepth 8192 in
/-- The folded scale, as a row. -/
theorem found_scale (c : Dev nD) :
    V m c main_v10 = shapeCast S1x16 (Cert.ReferenceIdeal.ReadP.val_main_v16 (F := F) (m ((c : Thread nD τ).loc main_arg4)) (m ((c : Thread nD τ).loc main_arg7))) shapeCasts_S16_S1x16 := by
  dsimp only [Gen.V]
  simp only [Gen.hostOps0, Gen.hostOps0_1, Gen.hostOps0_2, List.flatten_cons, List.flatten_nil, List.append_nil, List.cons_append,
    List.nil_append]
  host_term
  rfl

set_option maxRecDepth 8192 in
/-- The folded shift, as a row. -/
theorem found_shift (c : Dev nD) :
    V m c main_v11 = shapeCast S1x16 (Cert.ReferenceIdeal.ReadP.val_main_v20 (F := F) (m ((c : Thread nD τ).loc main_arg4)) (m ((c : Thread nD τ).loc main_arg5)) (m ((c : Thread nD τ).loc main_arg6)) (m ((c : Thread nD τ).loc main_arg7))) shapeCasts_S16_S1x16 := by
  dsimp only [Gen.V]
  simp only [Gen.hostOps0, Gen.hostOps0_1, Gen.hostOps0_2, List.flatten_cons, List.flatten_nil, List.append_nil, List.cons_append,
    List.nil_append]
  host_term
  rfl

end Cert.RelPos.Host

end
-- ==== Proof.RelPosReference.lean ====
/-
  The reference's result, read at an index, is the cell of `RelPosCell`.

  The reference builds the ten features as one array [4, 40960, 16, 10] by joining four pieces along the last
  axis — the distance (one column), the differences, the point's coordinates laid along the neighbour axis, and
  the gathered neighbour coordinates (three columns each) —, contracts it with the weights [16, 10] over that
  axis, moves the channel axis to position 1, multiplies by the scale and adds the shift (both laid along every
  other axis) and clips at zero. Read at `(b, o, n, k)` this is the `cell` of row `o` of the weights, point
  `(b, n)`, gathered neighbour `(b, n, k)` and entry `o` of scale and shift.

  The gathered neighbour array, the scale and the shift are kept as the reference's own stages
  (`val_main_v2`, `val_main_v16`, `val_main_v20`): nothing below looks inside them.
-/
import proofs.«128464_j72464688218281_2_alg».proof.Proof.RefReadP
import proofs.«128464_j72464688218281_2_alg».proof.Proof.RelPosCell
import Idealize.ShloMosaic.Lib.ValueIdx
import Idealize.ShloMosaic.Lib.Pipeline.Value

noncomputable section

namespace Cert.RelPos.Reference

open Cert.ReferenceIdeal Cert.ReferenceIdeal.Gen Cert.ReferenceIdeal.ReadP
open Idealize.ShloMosaic Idealize.ShloMosaic.TcCoe Idealize.ShloMosaic.ValueIdx Cert.RelPos

variable (x0 : (⟨S4x40960x3, .f32⟩ : BufTy).Contents (Elt Ideal)) (x2 : (⟨S4x40960x16, .i32⟩ : BufTy).Contents (Elt Ideal))
  (x3 : (⟨S16x10, .f32⟩ : BufTy).Contents (Elt Ideal)) (x4 x5 x6 x7 : (⟨S16, .f32⟩ : BufTy).Contents (Elt Ideal))

/-- The point's coordinates laid along the neighbour axis: entry `(b, n, k, d)` is coordinate `d` of point `(b, n)`. -/
theorem tile_at (b : Fin 4) (n : Fin 40960) (k : Fin 16) (d : Fin 3) :
    val_main_v4 (F := Ideal) x0 (ix4 b n k d) = x0 (ix3 b n d) := by
  rw [val_main_v4_apply, val_main_v3_apply]
  exact congrArg x0 (funext fun a => Fin.ext (by match a with | ⟨0, _⟩ => rfl | ⟨1, _⟩ => rfl | ⟨2, _⟩ => rfl))

/-- The difference array: point minus gathered neighbour. -/
theorem diff_at (b : Fin 4) (n : Fin 40960) (k : Fin 16) (d : Fin 3) :
    val_main_v5 (F := Ideal) x0 x2 (ix4 b n k d) = x0 (ix3 b n d) - val_main_v2 (F := Ideal) x0 x2 (ix4 b n k d) := by
  rw [val_main_v5_apply, tile_at]
  rfl

/-- The distance column: the square root of the sum over the three axes of the squared differences (the sum
    starts from the zero word, which is 0). -/
theorem dist_at (b : Fin 4) (n : Fin 40960) (k : Fin 16) :
    val_main_v9 (F := Ideal) x0 x2 (ix4 b n k (0 : Fin 1))
      = Ideal.sqrt
          ((x0 (ix3 b n 0) - val_main_v2 (F := Ideal) x0 x2 (ix4 b n k 0)) * (x0 (ix3 b n 0) - val_main_v2 (F := Ideal) x0 x2 (ix4 b n k 0))
            + (x0 (ix3 b n 1) - val_main_v2 (F := Ideal) x0 x2 (ix4 b n k 1)) * (x0 (ix3 b n 1) - val_main_v2 (F := Ideal) x0 x2 (ix4 b n k 1))
            + (x0 (ix3 b n 2) - val_main_v2 (F := Ideal) x0 x2 (ix4 b n k 2)) * (x0 (ix3 b n 2) - val_main_v2 (F := Ideal) x0 x2 (ix4 b n k 2))) := by
  have hsum : Ideal.ofBits .f32 0x00000000#32 + ∑ d : Fin 3,
        (x0 (ix3 b n d) - val_main_v2 (F := Ideal) x0 x2 (ix4 b n k d)) * (x0 (ix3 b n d) - val_main_v2 (F := Ideal) x0 x2 (ix4 b n k d))
      = (x0 (ix3 b n 0) - val_main_v2 (F := Ideal) x0 x2 (ix4 b n k 0)) * (x0 (ix3 b n 0) - val_main_v2 (F := Ideal) x0 x2 (ix4 b n k 0))
        + (x0 (ix3 b n 1) - val_main_v2 (F := Ideal) x0 x2 (ix4 b n k 1)) * (x0 (ix3 b n 1) - val_main_v2 (F := Ideal) x0 x2 (ix4 b n k 1))
        + (x0 (ix3 b n 2) - val_main_v2 (F := Ideal) x0 x2 (ix4 b n k 2)) * (x0 (ix3 b n 2) - val_main_v2 (F := Ideal) x0 x2 (ix4 b n k 2)) := by
    rw [Ideal.ofBits_zero_f32, zero_add, Fin.sum_univ_three]
  rw [← hsum]
  rw [val_main_v9_apply, val_main_v8_apply, val_main_v7_apply, val_main_cst_apply]
  show Ideal.sqrt (Ideal.ofBits .f32 0x00000000#32 + _) = _
  refine congrArg (fun s => Ideal.sqrt (Ideal.ofBits .f32 0x00000000#32 + s)) (Finset.sum_congr rfl fun d _ => ?_)
  have e : idx_main_v7 (idx_main_v8 (ix4 b n k (0 : Fin 1))) d = ix4 b n k d :=
    funext fun a => Fin.ext (by match a with | ⟨0, _⟩ => rfl | ⟨1, _⟩ => rfl | ⟨2, _⟩ => rfl | ⟨3, _⟩ => rfl)
  rw [e, val_main_v6_apply, diff_at]
  rfl

/-! ## The joined feature array, column by column

The join along the last axis lays a one-column piece and three three-column pieces end to end: column 0 is the first
piece's column, columns `1 + d`, `4 + d`, `7 + d` are column `d` of the second, third and fourth. -/

private theorem off_axis {s₁ : Shape} (hr : s₁.rank = 4) (i : s₁.Idx) (j : S4x40960x16x10.Idx)
    (h0 : (i ⟨0, by omega⟩).val = (j 0).val) (h1 : (i ⟨1, by omega⟩).val = (j 1).val) (h2 : (i ⟨2, by omega⟩).val = (j 2).val) :
    ∀ b : Fin s₁.rank, b.cast hr ≠ (3 : Fin 4) → (i b).val = (j (b.cast hr)).val := by
  intro b hb
  obtain ⟨v, hv⟩ := b
  have hv4 : v < 4 := hr ▸ hv
  match v, hv4 with
  | 0, _ => exact h0
  | 1, _ => exact h1
  | 2, _ => exact h2
  | 3, _ => exact absurd (Fin.ext rfl) hb

theorem join_dist (b : Fin 4) (n : Fin 40960) (k : Fin 16) (c : Fin 10) (hc : c.val = 0) :
    val_main_v10 (F := Ideal) x0 x2 (ix4 b n k c) = val_main_v9 (F := Ideal) x0 x2 (ix4 b n k (0 : Fin 1)) := by
  unfold val_main_v10
  refine concatenate_apply_piece (t := S4x40960x16x10) (3 : Fin 4) _ _ (ix4 b n k c) 0 ?_ S4x40960x16x1 (val_main_v9 (F := Ideal) x0 x2) ?_ rfl
    0 ?_ (ix4 b n k (0 : Fin 1)) ?_ ?_
  · show 0 < 4; decide
  · rfl
  · rfl
  · exact off_axis rfl _ _ rfl rfl rfl
  · exact hc.symm

theorem join_diff (b : Fin 4) (n : Fin 40960) (k : Fin 16) (c : Fin 10) (d : Fin 3) (hc : c.val = 1 + d.val) :
    val_main_v10 (F := Ideal) x0 x2 (ix4 b n k c) = val_main_v5 (F := Ideal) x0 x2 (ix4 b n k d) := by
  unfold val_main_v10
  refine concatenate_apply_piece (t := S4x40960x16x10) (3 : Fin 4) _ _ (ix4 b n k c) 1 ?_ S4x40960x16x3 (val_main_v5 (F := Ideal) x0 x2) ?_ rfl
    1 ?_ (ix4 b n k d) ?_ ?_
  · show 1 < 4; decide
  · rfl
  · rfl
  · exact off_axis rfl _ _ rfl rfl rfl
  · exact hc.symm

theorem join_tile (b : Fin 4) (n : Fin 40960) (k : Fin 16) (c : Fin 10) (d : Fin 3) (hc : c.val = 4 + d.val) :
    val_main_v10 (F := Ideal) x0 x2 (ix4 b n k c) = val_main_v4 (F := Ideal) x0 (ix4 b n k d) := by
  unfold val_main_v10
  refine concatenate_apply_piece (t := S4x40960x16x10) (3 : Fin 4) _ _ (ix4 b n k c) 2 ?_ S4x40960x16x3 (val_main_v4 (F := Ideal) x0) ?_ rfl
    4 ?_ (ix4 b n k d) ?_ ?_
  · show 2 < 4; decide
  · rfl
  · rfl
  · exact off_axis rfl _ _ rfl rfl rfl
  · exact hc.symm

theorem join_nbr (b : Fin 4) (n : Fin 40960) (k : Fin 16) (c : Fin 10) (d : Fin 3) (hc : c.val = 7 + d.val) :
    val_main_v10 (F := Ideal) x0 x2 (ix4 b n k c) = val_main_v2 (F := Ideal) x0 x2 (ix4 b n k d) := by
  unfold val_main_v10
  refine concatenate_apply_piece (t := S4x40960x16x10) (3 : Fin 4) _ _ (ix4 b n k c) 3 ?_ S4x40960x16x3 (val_main_v2 (F := Ideal) x0 x2) ?_ rfl
    7 ?_ (ix4 b n k d) ?_ ?_
  · show 3 < 4; decide
  · rfl
  · rfl
  · exact off_axis rfl _ _ rfl rfl rfl
  · exact hc.symm

/-! ## The result at an index -/

/-- The reference's result at `(b, o, n, k)` is the cell of row `o` of the weights, point `(b, n)`, its gathered
    neighbour `k`, and entry `o` of the scale and of the shift. -/
theorem result_at (b : Fin 4) (o : Fin 16) (n : Fin 40960) (k : Fin 16) :
    val_main_v26 (F := Ideal) x0 x2 x3 x4 x5 x6 x7 (ix4 b o n k)
      = cell (fun c => x3 (ix2 o c)) (fun d => x0 (ix3 b n d)) (fun d => val_main_v2 (F := Ideal) x0 x2 (ix4 b n k d))
          (val_main_v16 (F := Ideal) x4 x7 (ix1 o)) (val_main_v20 (F := Ideal) x4 x5 x6 x7 (ix1 o)) := by
  rw [val_main_v26_apply, val_main_v25_apply, val_main_v23_apply, val_main_v12_apply, val_main_v11_apply,
    val_main_v22_apply, val_main_v17_apply, val_main_v24_apply, val_main_v21_apply, val_main_call1_v0_apply,
    val_main_call1_cst_apply]
  have e16 : idx_main_v17 (idx_main_v22 (ix4 b o n k)) = ix1 o :=
    funext fun a => Fin.ext (by match a with | ⟨0, _⟩ => rfl)
  have e20 : idx_main_v21 (idx_main_v24 (ix4 b o n k)) = ix1 o :=
    funext fun a => Fin.ext (by match a with | ⟨0, _⟩ => rfl)
  have el : ∀ c : Fin 10, lidx_main_v11 (idx_main_v12 (ix4 b o n k)) c = ix2 o c := fun c =>
    funext fun a => Fin.ext (by match a with | ⟨0, _⟩ => rfl | ⟨1, _⟩ => rfl)
  have er : ∀ c : Fin 10, ridx_main_v11 (idx_main_v12 (ix4 b o n k)) c = ix4 b n k c := fun c =>
    funext fun a => Fin.ext (by match a with | ⟨0, _⟩ => rfl | ⟨1, _⟩ => rfl | ⟨2, _⟩ => rfl | ⟨3, _⟩ => rfl)
  rw [e16, e20, sum_univ_ten]
  simp only [el, er]
  rw [join_dist x0 x2 b n k 0 rfl, dist_at,
    join_diff x0 x2 b n k 1 0 rfl, join_diff x0 x2 b n k 2 1 rfl, join_diff x0 x2 b n k 3 2 rfl,
    join_tile x0 x2 b n k 4 0 rfl, join_tile x0 x2 b n k 5 1 rfl, join_tile x0 x2 b n k 6 2 rfl,
    join_nbr x0 x2 b n k 7 0 rfl, join_nbr x0 x2 b n k 8 1 rfl, join_nbr x0 x2 b n k 9 2 rfl,
    diff_at, diff_at, diff_at, tile_at, tile_at, tile_at]
  rfl

end Cert.RelPos.Reference

end
-- ==== Proof.RelPosBridge.lean ====
/-
  The two results are one array.

  The kernel's result is `encode` of what its region finds: the weights and the coordinates as launched, the
  gathered neighbours, and the scale and shift rows. The region finds in those last three the reference's own
  stages of the same arguments, and the reference's result read at an index is the same cell of the same numbers.
  So, from memories that agree on the arguments, the two results are equal index by index — whatever the
  arguments hold: only the grouping of a ten-term and of a three-term sum differs between the two programs.
-/
import proofs.«128464_j72464688218281_2_alg».proof.Proof.RelPosBlock
import proofs.«128464_j72464688218281_2_alg».proof.Proof.RelPosHost
import proofs.«128464_j72464688218281_2_alg».proof.Proof.RelPosReference
import Idealize.ShloMosaic.Lib.Pipeline.Value
import Idealize.ShloMosaic.Lib.ValueIdx

noncomputable section

namespace Cert.RelPos.Bridge

open Cert.KernelIdeal Cert.KernelIdeal.Gen Idealize.ShloMosaic Idealize.ShloMosaic.TcCoe Idealize.SL.Sem
open Idealize.ShloMosaic.ValueIdx Cert.RelPos

variable (m : (ℓ : Loc nD τ sig) → Buf (Elt Ideal) ℓ)

/-- A vector [16] viewed as one row [1, 16], read at `(0, o)`. -/
theorem row_apply (v : S16.Idx → EReal) (o : Fin 16) :
    shapeCast S1x16 v shapeCasts_S16_S1x16 (ix2 (0 : Fin 1) o) = v (ix1 o) :=
  shapeCast_apply v shapeCasts_S16_S1x16 (ix2 (0 : Fin 1) o) (ix1 o)
    (by rw [Shape.rowMajor_val_one, Shape.rowMajor_val_two]; show o.val = 0 * 16 + o.val; omega)

/-- The kernel's result array is the reference's last stage of the kernel's arguments. -/
theorem found_eq (c : Dev nD) :
    Kernel.found m c = Cert.ReferenceIdeal.ReadP.val_main_v26 (F := Ideal)
      (m ((c : Thread nD τ).loc main_arg0)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) := by
  funext i
  obtain ⟨b, o, n, k, rfl⟩ : ∃ (b : Fin 4) (o : Fin 16) (n : Fin 40960) (k : Fin 16), i = ix4 b o n k :=
    ⟨i 0, i 1, i 2, i 3, eq_ix4 i⟩
  rw [Reference.result_at]
  have hW : V m c (Pipeline.arrRef spec0 2) = m ((c : Thread nD τ).loc main_arg3) := V_main_arg3 m c
  have hX : V m c (Pipeline.arrRef spec0 0) = m ((c : Thread nD τ).loc main_arg0) := V_main_arg0 m c
  have hN := Host.found_nbr m c
  have hS := Host.found_scale m c
  have hH := Host.found_shift m c
  show cell (fun c' => V m c (Pipeline.arrRef spec0 2) (ix2 o c')) (fun d => V m c (Pipeline.arrRef spec0 0) (ix3 b n d))
      (fun d => V m c (Pipeline.arrRef spec0 1) (ix4 b n k d)) (V m c (Pipeline.arrRef spec0 3) (ix2 (0 : Fin 1) o))
      (V m c (Pipeline.arrRef spec0 4) (ix2 (0 : Fin 1) o)) = _
  rw [hW, hX, hN, hS, hH, row_apply, row_apply]

end Cert.RelPos.Bridge

end
-- ==== Proof.lean ====
/-
  The relative-position encoding of a point cloud, a Pallas kernel against its jnp reference.

  For every point `(b, n)` of a batch of point clouds and each of its 16 neighbours `k` (gathered by index on the
  host in both programs), ten features are formed — the distance to the neighbour, the coordinate differences, the
  point's coordinates, the neighbour's coordinates —, contracted with a weight matrix [16, 10], put through a
  batch normalisation folded into a scale and a shift per output channel, and clipped at zero. The kernel does this
  for 64 points at a time on a 4 × 640 grid and adds the ten products one after the other; the reference joins the
  features into one array and contracts it. Over the extended reals the two results are equal entry by entry,
  for any argument arrays: the two programs differ only in how they group the same ten-term and three-term sums,
  and apply the same host operations to the same arguments for everything else.

  `Cert.RelPos` (RelPosCell) is the cell and the result array as one function; `Cert.RelPos.Kernel` (RelPosBlock) shows the
  kernel's run leaves it, `Cert.RelPos.Host` what the kernel's region finds in the buffers the host fills,
  `Cert.RelPos.Reference` and `Cert.RelPos.RefRun` that the reference's run leaves it, `Cert.RelPos.Bridge` that the two
  arrays are one. The kernel's two frames are the generated ones; the idealization rewrote nothing.
-/
import proofs.«128464_j72464688218281_2_alg».proof.Defs
import proofs.«128464_j72464688218281_2_alg».proof.Proof.Gen.Kernel
import proofs.«128464_j72464688218281_2_alg».proof.Proof.Gen.Kernel.Skeleton
import proofs.«128464_j72464688218281_2_alg».proof.Proof.Gen.Kernel.Launch
import proofs.«128464_j72464688218281_2_alg».proof.Proof.Gen.Kernel.Points
import proofs.«128464_j72464688218281_2_alg».proof.Proof.Gen.Kernel.Frame
import proofs.«128464_j72464688218281_2_alg».proof.Proof.Gen.KernelIdeal
import proofs.«128464_j72464688218281_2_alg».proof.Proof.Gen.KernelIdeal.Skeleton
import proofs.«128464_j72464688218281_2_alg».proof.Proof.Gen.KernelIdeal.Launch
import proofs.«128464_j72464688218281_2_alg».proof.Proof.Gen.KernelIdeal.Points
import proofs.«128464_j72464688218281_2_alg».proof.Proof.Gen.KernelIdeal.Frame
import proofs.«128464_j72464688218281_2_alg».proof.Proof.Gen.ReferenceIdeal
import proofs.«128464_j72464688218281_2_alg».proof.Proof.Gen.Pre_finite_inputs
import proofs.«128464_j72464688218281_2_alg».proof.Proof.RelPosBlock
import proofs.«128464_j72464688218281_2_alg».proof.Proof.RelPosRefRun
import proofs.«128464_j72464688218281_2_alg».proof.Proof.RelPosBridge
import Idealize.ShloMosaic.Adequacy
import Idealize.ShloMosaic.Init

noncomputable section

namespace Cert.Proof

open Idealize.ShloMosaic Idealize.SL.Sem

/-- The kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.RelPos.RefRun.run (F := Ideal) m ρ)

/-- From memories that agree on the arguments both programs end with the array `encode` of those arguments. -/
theorem algebraic : Cert.algebraic_KernelIdeal_ReferenceIdeal := by
  intro m ρ m' ρ' _ hagree
  refine ⟨fun c => Cert.RelPos.Kernel.found m c, Cert.RelPos.Kernel.run m ρ, ?_⟩
  refine (θ_run Cert.ReferenceIdeal.defs _ _).mono (fun _ h c => ⟨(h c).1.trans ?_, (h c).2⟩)
    (Cert.RelPos.RefRun.run (F := Ideal) m' ρ')
  obtain ⟨a0, -, a2, a3, a4, a5, a6, a7⟩ := hagree c
  rw [a0, a2, a3, a4, a5, a6, a7]
  exact (Cert.RelPos.Bridge.found_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
